-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128 .f32) (main_arg6 : FVec F S128 .f32) (main_arg7 : FVec F S256x128 .f32) (main_arg8 : FVec F S128 .f32) (main_arg9 : FVec F S128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S256x128 .f32) (main_arg4 : FVec F S128 .f32) (main_arg5 : FVec F S128 .f32) (main_arg6 : FVec F S128 .f32) (main_arg7 : FVec F S256x128 .f32) (main_arg8 : FVec F S128 .f32) (main_arg9 : FVec F S128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S8000x256 : Shape := ⟨2, ![8000, 256]⟩
abbrev S8000x128 : Shape := ⟨2, ![8000, 128]⟩
abbrev S8000 : Shape := ⟨1, ![8000]⟩
abbrev S8000x1 : Shape := ⟨2, ![8000, 1]⟩
abbrev S50000x1 : Shape := ⟨2, ![50000, 1]⟩
abbrev S128x128 : Shape := ⟨2, ![128, 128]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 71
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x256, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S800000x128, .f32⟩
  | .hbm, ⟨40, _⟩ => ⟨S800000x1, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S_, .f32⟩
  | .hbm, ⟨48, _⟩ => ⟨S800000x1, .f32⟩
  | .hbm, ⟨49, _⟩ => ⟨S_, .f32⟩
  | .hbm, ⟨50, _⟩ => ⟨S50000x1, .f32⟩
  | .hbm, ⟨51, _⟩ => ⟨S800000x1, .i32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .i1⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x1, .f32⟩
  | .hbm, ⟨70, _⟩ => ⟨S50000x128, .f32⟩
  | .local _ .vmem, ⟨0, _⟩ => ⟨S8000x256, .f32⟩
  | .local _ .vmem, ⟨1, _⟩ => ⟨S8000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  shapeCasts_S128_S1x128 : S128.ShapeCasts S1x128
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S50000x128_S800000x1_S800000x128_1_0_n_n_0_1_1128_wf : GatherDims.WF S50000x128 S800000x1 S800000x128 [1] [0] [] [0] [] 1 ![1, 128]
  dot_S8000x256_S256x128_S8000x128_1_0_0_1_n_n_wf : DotDims.WF S8000x256 S256x128 S8000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S800000x256.size a
  hwx0_0 : ∀ i : grid0.Coords, EltTy.bits .f32 = 32 ∨ (Rect.block (s := S800000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v18) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x1 : Shape := ⟨2, ![50000, 1]⟩
abbrev S1x1 : Shape := ⟨2, ![1, 1]⟩
abbrev S50000x256 : Shape := ⟨2, ![50000, 256]⟩
abbrev S50000 : Shape := ⟨1, ![50000]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S256x128, .f32⟩
  | 4 => ⟨S128, .f32⟩
  | 5 => ⟨S128, .f32⟩
  | 6 => ⟨S128, .f32⟩
  | 7 => ⟨S256x128, .f32⟩
  | 8 => ⟨S128, .f32⟩
  | 9 => ⟨S128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x256, .f32⟩
  | 36 => ⟨S800000x128, .f32⟩
  | 37 => ⟨S1x128, .f32⟩
  | 38 => ⟨S800000x128, .f32⟩
  | 39 => ⟨S800000x128, .f32⟩
  | 40 => ⟨S_, .f32⟩
  | 41 => ⟨S800000, .f32⟩
  | 42 => ⟨S800000x1, .f32⟩
  | 43 => ⟨S_, .f32⟩
  | 44 => ⟨S800000x1, .f32⟩
  | 45 => ⟨S800000x1, .f32⟩
  | 46 => ⟨S800000x128, .f32⟩
  | 47 => ⟨S800000x128, .f32⟩
  | 48 => ⟨S800000x128, .f32⟩
  | 49 => ⟨S_, .f32⟩
  | 50 => ⟨S800000, .f32⟩
  | 51 => ⟨S800000x1, .f32⟩
  | 52 => ⟨S_, .f32⟩
  | 53 => ⟨S800000x1, .f32⟩
  | 54 => ⟨S800000x1, .f32⟩
  | 55 => ⟨S800000x128, .f32⟩
  | 56 => ⟨S800000x128, .f32⟩
  | 57 => ⟨S_, .f32⟩
  | 58 => ⟨S800000x1, .f32⟩
  | 59 => ⟨S800000x1, .f32⟩
  | 60 => ⟨S800000x1, .f32⟩
  | 61 => ⟨S800000x128, .f32⟩
  | 62 => ⟨S800000x128, .f32⟩
  | 63 => ⟨S1x128, .f32⟩
  | 64 => ⟨S800000x128, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x1, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S800000x1, .f32⟩
  | 81 => ⟨S_, .f32⟩
  | 82 => ⟨S50000x1, .f32⟩
  | 83 => ⟨S800000x1, .i32⟩
  | 84 => ⟨S50000x1, .f32⟩
  | 85 => ⟨S_, .f32⟩
  | 86 => ⟨S50000x1, .f32⟩
  | 87 => ⟨S50000x1, .i1⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x128, .f32⟩
  | 95 => ⟨S50000x128, .f32⟩
  | 96 => ⟨S50000x1, .f32⟩
  | 97 => ⟨S1x1, .f32⟩
  | 98 => ⟨S50000x1, .f32⟩
  | 99 => ⟨S50000x1, .f32⟩
  | 100 => ⟨S50000x1, .f32⟩
  | 101 => ⟨S50000x1, .f32⟩
  | 102 => ⟨S_, .f32⟩
  | 103 => ⟨S50000x1, .f32⟩
  | 104 => ⟨S50000x1, .f32⟩
  | 105 => ⟨S_, .f32⟩
  | 106 => ⟨S50000x1, .f32⟩
  | 107 => ⟨S50000x1, .f32⟩
  | 108 => ⟨S50000x256, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x1, .f32⟩
  | 4 => ⟨S50000x1, .f32⟩
  | 5 => ⟨S50000x1, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S50000x128, .f32⟩
  | 19 => ⟨S_, .f32⟩
  | 20 => ⟨S50000x1, .f32⟩
  | 21 => ⟨S50000x1, .f32⟩
  | 22 => ⟨S50000x128, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_cst : Ref sig .tc := ⟨.hbm, 69, rfl⟩
abbrev main_call0_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_call1_cst : Ref sig .tc := ⟨.hbm, 142, rfl⟩
abbrev main_call1_v0 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_19 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x1_S50000x1_1_0_0_1_n_n_wf : DotDims.WF S50000x128 S128x1 S50000x1 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run with its result kept: every weakly fair execution of the idealized kernel program ends,
  nothing faulting, with the result array holding what the second region's write-backs leave (the contents of the
  last segment boundary read at the result) and the thirteen argument arrays as launched.  The four segments — the
  host stretch before the message stage, the message stage over its 100 row blocks, the host stretch between the
  stages, the update stage over its 10 row blocks — are launched as in the frame; the final state is read at one more
  buffer.
-/
import proofs.«113444_j71382356459943_1_alg».proof.Proof.Gen.KernelIdeal.Frame

set_option maxRecDepth 16384

noncomputable section

namespace Cert.Bridge.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments unchanged. -/
theorem run_value : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.Bridge.KernelRun

end
-- ==== Proof.Spec.lean ====
/-
  What the two programs compute, as functions of whole arrays read index by index on the extended reals.

  A row `h` of 128 lanes is normalised as `(h j - μ) * rsqrt (σ² + ε) * γ j + β j` with `μ` the row's sum over 128
  and `σ²` the sum of the squared deviations over 128, then clamped below at zero.  The message stage applies this
  to `h = a · W + b` for each row `a` of the gathered edge features; the update stage applies it to
  `h = x · Wx + m · Wm + b` and blends the result with `x` by the gate `s = logistic (x · w + c)`:
  `s * relu (…) + (1 - s) * x`.
-/
import Idealize.ShloMosaic.PureOps.Ideal
import Idealize.ShloMosaic.Lib.ValueIdx

noncomputable section

namespace Cert.Bridge

open Idealize.ShloMosaic Idealize.ShloMosaic.ValueIdx
open scoped BigOperators

/-- The divisor 128, the variance's epsilon, zero and one, as the words both programs print. -/
abbrev w128 : EReal := Ideal.ofBits .f32 0x43000000#32
abbrev wEps : EReal := Ideal.ofBits .f32 0x3727C5AC#32
abbrev wZero : EReal := Ideal.ofBits .f32 0x00000000#32
abbrev wOne : EReal := Ideal.ofBits .f32 0x3F800000#32

/-- The mean of a row: its sum divided by 128. -/
def rowMean (h : Fin 128 → EReal) : EReal := Ideal.div (∑ k : Fin 128, h k) w128

/-- The mean of the squared deviations of a row from its mean. -/
def rowVar (h : Fin 128 → EReal) : EReal :=
  Ideal.div (∑ k : Fin 128, (h k - rowMean h) * (h k - rowMean h)) w128

/-- Layer normalisation of a row with scale `g` and shift `β`, clamped below at zero. -/
def lnRelu (h g β : Fin 128 → EReal) (j : Fin 128) : EReal :=
  max ((h j - rowMean h) * Ideal.rsqrt (rowVar h + wEps) * g j + β j) wZero

/-- A row `a` of `K` entries through a `K × 128` matrix, plus a bias row. -/
def affine {K : ℕ} (a : Fin K → EReal) (W : Fin K → Fin 128 → EReal) (b : Fin 128 → EReal) (j : Fin 128) : EReal :=
  (∑ k : Fin K, a k * W k j) + b j

/-- Two rows through two `128 × 128` matrices, summed, plus a bias row. -/
def affine2 (a m : Fin 128 → EReal) (Wa Wm : Fin 128 → Fin 128 → EReal) (b : Fin 128 → EReal) (j : Fin 128) : EReal :=
  ((∑ k : Fin 128, a k * Wa k j) + ∑ k : Fin 128, m k * Wm k j) + b j

/-- The gate of a node: the logistic function of its row against a column, plus a constant. -/
def gate (a : Fin 128 → EReal) (w : Fin 128 → EReal) (c : EReal) : EReal :=
  Ideal.logistic ((∑ k : Fin 128, a k * w k) + c)

/-- The message stage over all 800000 edges: entry `(e, j)` from row `e` of the edge features. -/
def msgFn (em : (⟨2, ![800000, 256]⟩ : Shape).Idx → EReal) (W : (⟨2, ![256, 128]⟩ : Shape).Idx → EReal)
    (b g β : (⟨2, ![1, 128]⟩ : Shape).Idx → EReal) : (⟨2, ![800000, 128]⟩ : Shape).Idx → EReal :=
  fun i => lnRelu (affine (fun k : Fin 256 => em (ix2 (i 0) k)) (fun k j => W (ix2 k j)) (fun j => b (ix2 0 j)))
    (fun j => g (ix2 0 j)) (fun j => β (ix2 0 j)) (i 1)

/-- The update stage over all 50000 nodes: entry `(n, j)` from rows `n` of the features and of the messages. -/
def updFn (x m : (⟨2, ![50000, 128]⟩ : Shape).Idx → EReal) (Wx Wm : (⟨2, ![128, 128]⟩ : Shape).Idx → EReal)
    (b g β : (⟨2, ![1, 128]⟩ : Shape).Idx → EReal) (w : (⟨2, ![128, 1]⟩ : Shape).Idx → EReal)
    (c : (⟨2, ![1, 1]⟩ : Shape).Idx → EReal) : (⟨2, ![50000, 128]⟩ : Shape).Idx → EReal :=
  fun i =>
    gate (fun k => x (ix2 (i 0) k)) (fun k => w (ix2 k 0)) (c (ix2 0 0))
        * lnRelu (affine2 (fun k => x (ix2 (i 0) k)) (fun k => m (ix2 (i 0) k)) (fun k j => Wx (ix2 k j))
            (fun k j => Wm (ix2 k j)) (fun j => b (ix2 0 j))) (fun j => g (ix2 0 j)) (fun j => β (ix2 0 j)) (i 1)
      + (wOne - gate (fun k => x (ix2 (i 0) k)) (fun k => w (ix2 k 0)) (c (ix2 0 0))) * x (ix2 (i 0) (i 1))

theorem msgFn_apply (em : (⟨2, ![800000, 256]⟩ : Shape).Idx → EReal) (W : (⟨2, ![256, 128]⟩ : Shape).Idx → EReal)
    (b g β : (⟨2, ![1, 128]⟩ : Shape).Idx → EReal) (e : Fin 800000) (j : Fin 128) :
    msgFn em W b g β (ix2 e j)
      = lnRelu (affine (fun k : Fin 256 => em (ix2 e k)) (fun k j => W (ix2 k j)) (fun j => b (ix2 0 j)))
          (fun j => g (ix2 0 j)) (fun j => β (ix2 0 j)) j := rfl

theorem updFn_apply (x m : (⟨2, ![50000, 128]⟩ : Shape).Idx → EReal) (Wx Wm : (⟨2, ![128, 128]⟩ : Shape).Idx → EReal)
    (b g β : (⟨2, ![1, 128]⟩ : Shape).Idx → EReal) (w : (⟨2, ![128, 1]⟩ : Shape).Idx → EReal)
    (c : (⟨2, ![1, 1]⟩ : Shape).Idx → EReal) (n : Fin 50000) (j : Fin 128) :
    updFn x m Wx Wm b g β w c (ix2 n j)
      = gate (fun k => x (ix2 n k)) (fun k => w (ix2 k 0)) (c (ix2 0 0))
            * lnRelu (affine2 (fun k => x (ix2 n k)) (fun k => m (ix2 n k)) (fun k j => Wx (ix2 k j))
                (fun k j => Wm (ix2 k j)) (fun j => b (ix2 0 j))) (fun j => g (ix2 0 j)) (fun j => β (ix2 0 j)) j
          + (wOne - gate (fun k => x (ix2 n k)) (fun k => w (ix2 k 0)) (c (ix2 0 0))) * x (ix2 n j) := rfl

end Cert.Bridge

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibLayerNorm.lean ====
/-
  A block of rows normalised lane-wise, at an index, at the ideal values, for any number of rows `R` and lanes `B`.

  The vector unit's spelling: the lane sum of the block as a column, divided by a constant word `dW` (the mean `μ`),
  spread back over the lanes and subtracted; the squares of the deviations summed over the lanes and divided by `dW`
  again (the variance), a word `eW` added, the inverse square root taken and spread over the lanes; the product
  rescaled by a row `g`, shifted by a row `β`, and clamped below at a word `zW`.  Read at `(p, q)` it is
  `max ((h p q - μ p) * rsqrt (σ² p + eW) * g q + β q) zW`, where `μ p` and `σ² p` are sums over row `p` only.
-/
import proofs.«113444_j71382356459943_1_alg».proof.Proof.LibColumns
import proofs.«113444_j71382356459943_1_alg».proof.Proof.LibRows

noncomputable section

namespace Cert.Lib.LayerNorm

open Idealize.ShloMosaic Idealize.ShloMosaic.ValueIdx
open scoped BigOperators

variable {R B : ℕ}

/-- The mean of each row as a column: the lane sum from zero, cast to a column, divided by the word `dW`. -/
def colMean (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩) :
    FVec Ideal ⟨2, ![R, 1]⟩ .f32 :=
  divf (shapeCast ⟨2, ![R, 1]⟩ (multiReduction .add [1] ⟨1, ![R]⟩ h 0x00000000#32 hred (.inl rfl) rfl) hcol)
    (broadcast ⟨2, ![R, 1]⟩ (Scalar.ofBits (F := Ideal) .f32 dW))

/-- The deviations of a block from its rows' means. -/
def centred (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) : FVec Ideal ⟨2, ![R, B]⟩ .f32 :=
  subf h (broadcastTo ⟨2, ![R, B]⟩ (colMean h dW hred hcol) hlane)

/-- The normalised, rescaled, shifted and clamped block, as the vector unit spells it. -/
def normRows (h : FVec Ideal ⟨2, ![R, B]⟩ .f32) (g β : FVec Ideal ⟨2, ![1, B]⟩ .f32) (dW eW zW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩)
    (hself : (⟨2, ![1, B]⟩ : Shape).ShapeCasts ⟨2, ![1, B]⟩) : FVec Ideal ⟨2, ![R, B]⟩ .f32 :=
  maximumf
    (addf
      (mulf
        (mulf (centred h dW hred hcol hlane)
          (broadcastTo ⟨2, ![R, B]⟩
            (rsqrt (addf (colMean (mulf (centred h dW hred hcol hlane) (centred h dW hred hcol hlane)) dW hred hcol)
              (broadcast ⟨2, ![R, 1]⟩ (Scalar.ofBits (F := Ideal) .f32 eW)))) hlane))
        (broadcastTo ⟨2, ![R, B]⟩ (shapeCast ⟨2, ![1, B]⟩ g hself) hrow))
      (broadcastTo ⟨2, ![R, B]⟩ (shapeCast ⟨2, ![1, B]⟩ β hself) hrow))
    (broadcast ⟨2, ![R, B]⟩ (Scalar.ofBits (F := Ideal) .f32 zW))

/-- The mean column at row `p` is the sum over row `p` divided by the word. -/
theorem colMean_apply (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (p : Fin R) (u : Fin 1) :
    colMean h dW hred hcol (ix2 p u) = Ideal.div (∑ k : Fin B, h (ix2 p k)) (Ideal.ofBits .f32 dW) := by
  unfold colMean
  rw [divf_apply, Cert.Columns.shapeCast_a_a1_apply]
  exact congrArg (fun s => Ideal.div s (Ideal.ofBits .f32 dW))
    (Cert.Columns.laneSum_apply h 0x00000000#32 hred (.inl rfl) rfl p)

/-- A deviation at `(p, k)` is the entry minus its row's mean. -/
theorem centred_apply (h : FVec Ideal ⟨2, ![R, B]⟩ .f32) (dW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (p : Fin R) (k : Fin B) :
    centred h dW hred hcol hlane (ix2 p k)
      = h (ix2 p k) - Ideal.div (∑ k' : Fin B, h (ix2 p k')) (Ideal.ofBits .f32 dW) := by
  unfold centred
  rw [subf_apply, Cert.Columns.broadcastTo_a1_ab_apply _ _ p k 0, colMean_apply]

/-- The whole chain at `(p, q)`. -/
theorem normRows_apply (h : FVec Ideal ⟨2, ![R, B]⟩ .f32) (g β : FVec Ideal ⟨2, ![1, B]⟩ .f32) (dW eW zW : BitVec 32)
    (hred : (⟨2, ![R, B]⟩ : Shape).Reduces [1] ⟨1, ![R]⟩) (hcol : (⟨1, ![R]⟩ : Shape).ShapeCasts ⟨2, ![R, 1]⟩)
    (hlane : (⟨2, ![R, 1]⟩ : Shape).Broadcasts ⟨2, ![R, B]⟩) (hrow : (⟨2, ![1, B]⟩ : Shape).Broadcasts ⟨2, ![R, B]⟩)
    (hself : (⟨2, ![1, B]⟩ : Shape).ShapeCasts ⟨2, ![1, B]⟩) (p : Fin R) (q : Fin B) :
    normRows h g β dW eW zW hred hcol hlane hrow hself (ix2 p q)
      = max ((h (ix2 p q) - Ideal.div (∑ k : Fin B, h (ix2 p k)) (Ideal.ofBits .f32 dW))
              * Ideal.rsqrt (Ideal.div (∑ k : Fin B,
                    (h (ix2 p k) - Ideal.div (∑ k' : Fin B, h (ix2 p k')) (Ideal.ofBits .f32 dW))
                      * (h (ix2 p k) - Ideal.div (∑ k' : Fin B, h (ix2 p k')) (Ideal.ofBits .f32 dW)))
                  (Ideal.ofBits .f32 dW) + Ideal.ofBits .f32 eW)
              * g (ix2 0 q) + β (ix2 0 q)) (Ideal.ofBits .f32 zW) := by
  unfold normRows
  rw [maximumf_apply, addf_apply, mulf_apply, mulf_apply, centred_apply,
    Cert.Columns.broadcastTo_a1_ab_apply _ _ p q 0, Cert.Lib.Rows.broadcastTo_row_apply,
    Cert.Lib.Rows.broadcastTo_row_apply, shapeCast_self, shapeCast_self]
  have hvar : rsqrt (addf (colMean (mulf (centred h dW hred hcol hlane) (centred h dW hred hcol hlane)) dW hred hcol)
        (broadcast ⟨2, ![R, 1]⟩ (Scalar.ofBits (F := Ideal) .f32 eW))) (ix2 p (0 : Fin 1))
      = Ideal.rsqrt (Ideal.div (∑ k : Fin B,
                    (h (ix2 p k) - Ideal.div (∑ k' : Fin B, h (ix2 p k')) (Ideal.ofBits .f32 dW))
                      * (h (ix2 p k) - Ideal.div (∑ k' : Fin B, h (ix2 p k')) (Ideal.ofBits .f32 dW)))
                  (Ideal.ofBits .f32 dW) + Ideal.ofBits .f32 eW) := by
    show Ideal.rsqrt (colMean (mulf (centred h dW hred hcol hlane) (centred h dW hred hcol hlane)) dW hred hcol (ix2 p 0)
        + Ideal.ofBits .f32 eW) = _
    rw [colMean_apply]
    simp only [mulf_apply, centred_apply]
  rw [hvar]
  rfl

end Cert.Lib.LayerNorm

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.Region0.lean ====
/-
  The message stage as one function of whole arrays.

  The stage runs over 100 grid points; point `t` reads rows `8000 t … 8000 t + 7999` of the gathered edge
  features (all 256 columns), the whole weight matrix and the three parameter rows, and writes rows
  `8000 t … 8000 t + 7999` of the result.  Entry `(p, q)` of what it writes depends on row `p` of its feature block
  only: the row goes through the matrix, the bias row is added, and the resulting 128 lanes are normalised, rescaled,
  shifted and clamped.  So block `t` of the result is block `t` of `msgFn` of the whole arrays, the 100 blocks tile
  the 800000 rows, and the array the stage leaves is `msgFn` of the arrays it found.
-/
import proofs.«113444_j71382356459943_1_alg».proof.Proof.Gen.KernelIdeal.Frame
import proofs.«113444_j71382356459943_1_alg».proof.Proof.Spec
import proofs.«113444_j71382356459943_1_alg».proof.Proof.LibLayerNorm
import proofs.«113444_j71382356459943_1_alg».proof.Proof.LibPlainDot

set_option maxRecDepth 16384

noncomputable section

namespace Cert.Bridge.Region0

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

/-! ## One point's payload at an index -/

/-- The block before normalisation: the feature block through the matrix, plus the bias row. -/
def pre (x0 : Vec Ideal S8000x256 .f32) (x1 : Vec Ideal S256x128 .f32) (x2 : Vec Ideal S1x128 .f32) :
    FVec Ideal S8000x128 .f32 :=
  addf (matmul dot_S8000x256_S256x128_S8000x128_1_0_0_1_n_n none
      (truncf .bf16 (shapeCast S8000x256 x0 shapeCasts_S8000x256_S8000x256) bitsLt_bf16_f32)
      (truncf .bf16 x1 bitsLt_bf16_f32) (constant S8000x128 .f32 0x00000000#32))
    (broadcastTo S8000x128 (shapeCast S1x128 x2 shapeCasts_S1x128_S1x128) broadcasts_S1x128_S8000x128)

/-- Entry `(p, j)` of it is row `p` of the block against column `j` of the matrix, plus the bias at `j`. -/
theorem pre_apply (x0 : Vec Ideal S8000x256 .f32) (x1 : Vec Ideal S256x128 .f32) (x2 : Vec Ideal S1x128 .f32)
    (p : Fin 8000) (j : Fin 128) :
    pre x0 x1 x2 (ix2 p j)
      = affine (fun k : Fin 256 => x0 (ix2 p k)) (fun k j => x1 (ix2 k j)) (fun j => x2 (ix2 0 j)) j := by
  unfold pre affine
  have hd : dot_S8000x256_S256x128_S8000x128_1_0_0_1_n_n = DotDims.plain 8000 256 128 := rfl
  rw [addf_apply, Cert.Lib.Rows.broadcastTo_row_apply, shapeCast_self, hd,
    Cert.Lib.PlainDot.matmul_plain_zero_apply]
  simp only [truncf_apply, shapeCast_self]

/-- The payload is the normalisation chain of that block. -/
theorem pay_eq (x0 : Vec Ideal S8000x256 .f32) (x1 : Vec Ideal S256x128 .f32) (x2 x3 x4 : Vec Ideal S1x128 .f32) :
    k0_pay1 (F := Ideal) x0 x1 x2 x3 x4
      = Cert.Lib.LayerNorm.normRows (pre x0 x1 x2) x3 x4 0x43000000#32 0x3727C5AC#32 0x00000000#32
          reduces_S8000x128_S8000 shapeCasts_S8000_S8000x1 broadcasts_S8000x1_S8000x128 broadcasts_S1x128_S8000x128
          shapeCasts_S1x128_S1x128 := rfl

/-- Entry `(p, q)` of the payload: the normalised row `p`. -/
theorem pay_apply (x0 : Vec Ideal S8000x256 .f32) (x1 : Vec Ideal S256x128 .f32) (x2 x3 x4 : Vec Ideal S1x128 .f32)
    (p : Fin 8000) (q : Fin 128) :
    k0_pay1 (F := Ideal) x0 x1 x2 x3 x4 (ix2 p q)
      = lnRelu (affine (fun k : Fin 256 => x0 (ix2 p k)) (fun k j => x1 (ix2 k j)) (fun j => x2 (ix2 0 j)))
          (fun j => x3 (ix2 0 j)) (fun j => x4 (ix2 0 j)) q := by
  rw [pay_eq, Cert.Lib.LayerNorm.normRows_apply]
  simp only [pre_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and result windows sit at block row `t`, column block zero;
    the matrix and the parameter rows at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 2000000 in
/-- What point `t` writes back is block `t` of `msgFn` of the arrays as the stage finds them. -/
theorem flushed_eq (c : Dev nD) (t : Fin cfg0.N) :
    (dat0 (F := Ideal) V c).flushed 5 t
      = ((cfg0.win 5).blk t).view.read (Elt Ideal)
          (msgFn (V c main_v18) (V c main_arg3) (V c main_v19) (V c main_v20) (V c main_v21)) := by
  show (cfg0.win 5).cut (grid0.coords t) ((dat0 (F := Ideal) V c).after 5 t) = _
  rw [after0_5]
  unfold out0_5
  rw [View.canon_unit_zero hz]
  simp only [View.ld_unit_zero (S := S8000x256) hz, View.ld_unit_zero (S := S256x128) hz,
    View.ld_unit_zero (S := S1x128) hz]
  obtain ⟨e0, e1, e2, e3, e4, e5, e6, e7, e8, e9, e10, e11⟩ := idx_facts t
  have hN : t.val < 100 := lt_of_lt_of_eq t.isLt (show cfg0.N = 100 from N_0)
  funext j
  obtain ⟨p, q, rfl⟩ : ∃ (p : Fin 8000) (q : Fin 128), j = ix2 p q := ⟨j 0, j 1, eq_ix2 j⟩
  have hp : p.val < 8000 := p.isLt
  have hq : q.val < 128 := q.isLt
  show k0_pay1 (F := Ideal) (iblk0 V c 0 t) (iblk0 V c 1 t) (iblk0 V c 2 t) (iblk0 V c 3 t) (iblk0 V c 4 t) (ix2 p q)
    = msgFn (V c main_v18) (V c main_arg3) (V c main_v19) (V c main_v20) (V c main_v21)
        (((cfg0.win 5).blk t).view.emb (ix2 p q))
  have hemb : ((cfg0.win 5).blk t).view.emb (ix2 p q)
      = ix2 (⟨t.val * 8000 + p.val, by omega⟩ : Fin 800000) q := by
    funext a; apply Fin.ext
    match a with
    | ⟨0, _⟩ => show win0_5.index t (0 : Fin 2) * 8000 + 1 * p.val = t.val * 8000 + p.val; omega
    | ⟨1, _⟩ => show win0_5.index t (1 : Fin 2) * 128 + 1 * q.val = q.val; omega
  have h0 : ∀ k : Fin 256, iblk0 V c 0 t (ix2 p k)
      = V c main_v18 (ix2 (⟨t.val * 8000 + p.val, by omega⟩ : Fin 800000) k) := fun k => by
    show V c main_v18 (((cfg0.win 0).blk t).view.emb (ix2 p k)) = _
    refine congrArg (V c main_v18) (funext fun a => Fin.ext ?_)
    have hk : k.val < 256 := k.isLt
    match a with
    | ⟨0, _⟩ => show win0_0.index t (0 : Fin 2) * 8000 + 1 * p.val = t.val * 8000 + p.val; omega
    | ⟨1, _⟩ => show win0_0.index t (1 : Fin 2) * 256 + 1 * k.val = k.val; omega
  have h1 : ∀ (k : Fin 256) (j : Fin 128), iblk0 V c 1 t (ix2 k j) = V c main_arg3 (ix2 k j) := fun k j => by
    show V c main_arg3 (((cfg0.win 1).blk t).view.emb (ix2 k j)) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 128 + 1 * j.val = j.val; omega
  have h2 : ∀ j : Fin 128, iblk0 V c 2 t (ix2 0 j) = V c main_v19 (ix2 0 j) := fun j => by
    show V c main_v19 (((cfg0.win 2).blk t).view.emb (ix2 0 j)) = _
    refine congrArg (V c main_v19) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  have h3 : ∀ j : Fin 128, iblk0 V c 3 t (ix2 0 j) = V c main_v20 (ix2 0 j) := fun j => by
    show V c main_v20 (((cfg0.win 3).blk t).view.emb (ix2 0 j)) = _
    refine congrArg (V c main_v20) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  have h4 : ∀ j : Fin 128, iblk0 V c 4 t (ix2 0 j) = V c main_v21 (ix2 0 j) := fun j => by
    show V c main_v21 (((cfg0.win 4).blk t).view.emb (ix2 0 j)) = _
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega
  rw [hemb, msgFn_apply]
  refine (pay_apply (iblk0 V c 0 t) (iblk0 V c 1 t) (iblk0 V c 2 t) (iblk0 V c 3 t) (iblk0 V c 4 t) p q).trans ?_
  simp only [h0, h1, h2, h3, h4]

/-- An index of the result is in point `t`'s block iff each coordinate is in the block's range on its axis. -/
theorem mem_blk (t : Fin cfg0.N) (i : S800000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v22).slice (win0_5.rect t)).set ↔ _
  rw [View.set_slice_whole, Rect.mem_set_unit]
  exact Iff.rfl

/-- Every row of the result lies in the block of the point `row / 8000`. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hlt : (i 0).val / 8000 < cfg0.N := by rw [show cfg0.N = grid0.N from rfl, N_0]; omega
  refine ⟨⟨(i 0).val / 8000, hlt⟩, flush0_5 _, ?_⟩
  obtain ⟨e0, e1, e2, e3, e4, e5, e6, e7, e8, e9, e10, e11⟩ := idx_facts ⟨(i 0).val / 8000, hlt⟩
  have e10' : win0_5.index ⟨(i 0).val / 8000, hlt⟩ (0 : Fin 2) = (i 0).val / 8000 := e10
  rw [mem_blk]
  intro a
  match a with
  | ⟨0, _⟩ =>
    show win0_5.index ⟨(i 0).val / 8000, hlt⟩ (0 : Fin 2) * 8000 ≤ (i 0).val
      ∧ (i 0).val < win0_5.index ⟨(i 0).val / 8000, hlt⟩ (0 : Fin 2) * 8000 + 8000
    omega
  | ⟨1, _⟩ =>
    show win0_5.index ⟨(i 0).val / 8000, hlt⟩ (1 : Fin 2) * 128 ≤ (i 1).val
      ∧ (i 1).val < win0_5.index ⟨(i 0).val / 8000, hlt⟩ (1 : Fin 2) * 128 + 128
    omega

/-- The array the stage leaves: `msgFn` of the arrays it found. -/
theorem final (c : Dev nD) :
    (dat0 (F := Ideal) V c).arrAt 5 cfg0.N
      = msgFn (V c main_v18) (V c main_arg3) (V c main_v19) (V c main_v20) (V c main_v21) :=
  (dat0 (F := Ideal) V c).arrAt_eq_of_cover 5
    (msgFn (V c main_v18) (V c main_arg3) (V c main_v19) (V c main_v20) (V c main_v21))
    (fun t _ => flushed_eq V c t) cover

end Cert.Bridge.Region0

end
-- ==== Proof.Region1.lean ====
/-
  The update stage as one function of whole arrays.

  The stage runs over 10 grid points; point `t` reads rows `5000 t … 5000 t + 4999` of the node features and of the
  aggregated messages, the two 128 × 128 halves of the update matrix, three parameter rows, the gate's column and
  its constant, and writes rows `5000 t … 5000 t + 4999` of the result.  Entry `(p, q)` of what it writes depends on
  rows `p` of its two blocks only: the feature row through the first half plus the message row through the second
  half plus the bias, normalised, rescaled, shifted and clamped; blended with the feature entry by the row's gate.
  So block `t` of the result is block `t` of `updFn` of the whole arrays, the 10 blocks tile the 50000 rows, and
  the array the stage leaves is `updFn` of the arrays it found.
-/
import proofs.«113444_j71382356459943_1_alg».proof.Proof.Gen.KernelIdeal.Frame
import proofs.«113444_j71382356459943_1_alg».proof.Proof.Spec
import proofs.«113444_j71382356459943_1_alg».proof.Proof.LibLayerNorm
import proofs.«113444_j71382356459943_1_alg».proof.Proof.LibPlainDot

set_option maxRecDepth 16384

noncomputable section

namespace Cert.Bridge.Region1

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

/-! ## One point's payload at an index -/

/-- The block before normalisation: features through the first matrix plus messages through the second, plus the
    bias row. -/
def pre (x0 x1 : Vec Ideal S5000x128 .f32) (x2 x3 : Vec Ideal S128x128 .f32) (x4 : Vec Ideal S1x128 .f32) :
    FVec Ideal S5000x128 .f32 :=
  addf
    (addf
      (matmul dot_S5000x128_S128x128_S5000x128_1_0_0_1_n_n none (truncf .bf16 x0 bitsLt_bf16_f32)
        (truncf .bf16 (shapeCast S128x128 x2 shapeCasts_S128x128_S128x128) bitsLt_bf16_f32)
        (constant S5000x128 .f32 0x00000000#32))
      (matmul dot_S5000x128_S128x128_S5000x128_1_0_0_1_n_n none
        (truncf .bf16 (shapeCast S5000x128 x1 shapeCasts_S5000x128_S5000x128) bitsLt_bf16_f32)
        (truncf .bf16 (shapeCast S128x128 x3 shapeCasts_S128x128_S128x128) bitsLt_bf16_f32)
        (constant S5000x128 .f32 0x00000000#32)))
    (broadcastTo S5000x128 (shapeCast S1x128 x4 shapeCasts_S1x128_S1x128) broadcasts_S1x128_S5000x128)

/-- The gate as a column: the logistic function of features against the gate's column, plus its constant. -/
def gateCol (x0 : Vec Ideal S5000x128 .f32) (x7 : Vec Ideal S128x1 .f32) (x8 : Vec Ideal S1x1 .f32) :
    FVec Ideal S5000x1 .f32 :=
  logistic (addf
    (matmul dot_S5000x128_S128x1_S5000x1_1_0_0_1_n_n none (truncf .bf16 x0 bitsLt_bf16_f32)
      (truncf .bf16 x7 bitsLt_bf16_f32) (constant S5000x1 .f32 0x00000000#32))
    (broadcastTo S5000x1 (shapeCast S1x1 x8 shapeCasts_S1x1_S1x1) broadcasts_S1x1_S5000x1))

theorem pre_apply (x0 x1 : Vec Ideal S5000x128 .f32) (x2 x3 : Vec Ideal S128x128 .f32) (x4 : Vec Ideal S1x128 .f32)
    (p : Fin 5000) (j : Fin 128) :
    pre x0 x1 x2 x3 x4 (ix2 p j)
      = affine2 (fun k => x0 (ix2 p k)) (fun k => x1 (ix2 p k)) (fun k j => x2 (ix2 k j)) (fun k j => x3 (ix2 k j))
          (fun j => x4 (ix2 0 j)) j := by
  unfold pre affine2
  have hd : dot_S5000x128_S128x128_S5000x128_1_0_0_1_n_n = DotDims.plain 5000 128 128 := rfl
  rw [addf_apply, addf_apply, Cert.Lib.Rows.broadcastTo_row_apply, shapeCast_self, hd,
    Cert.Lib.PlainDot.matmul_plain_zero_apply, Cert.Lib.PlainDot.matmul_plain_zero_apply]
  simp only [truncf_apply, shapeCast_self]

theorem gateCol_apply (x0 : Vec Ideal S5000x128 .f32) (x7 : Vec Ideal S128x1 .f32) (x8 : Vec Ideal S1x1 .f32)
    (p : Fin 5000) (u : Fin 1) :
    gateCol x0 x7 x8 (ix2 p u) = gate (fun k => x0 (ix2 p k)) (fun k => x7 (ix2 k 0)) (x8 (ix2 0 0)) := by
  obtain rfl : u = 0 := Subsingleton.elim u 0
  unfold gateCol gate
  have hd : dot_S5000x128_S128x1_S5000x1_1_0_0_1_n_n = DotDims.plain 5000 128 1 := rfl
  show Ideal.logistic (_ + _) = _
  rw [Cert.Lib.Rows.broadcastTo_row_apply, shapeCast_self, hd, Cert.Lib.PlainDot.matmul_plain_zero_apply]
  simp only [truncf_apply]

/-- The payload: the gate's blend of the normalisation chain with the features. -/
theorem pay_eq (x0 x1 : Vec Ideal S5000x128 .f32) (x2 x3 : Vec Ideal S128x128 .f32) (x4 x5 x6 : Vec Ideal S1x128 .f32)
    (x7 : Vec Ideal S128x1 .f32) (x8 : Vec Ideal S1x1 .f32) :
    k1_pay1 (F := Ideal) x0 (k1_pay2 x0) (k1_pay3 x0 x1 x2 x3 x4 x5) x6 x7 x8
      = addf
          (mulf (broadcastTo S5000x128 (gateCol x0 x7 x8) broadcasts_S5000x1_S5000x128)
            (Cert.Lib.LayerNorm.normRows (pre x0 x1 x2 x3 x4) x5 x6 0x43000000#32 0x3727C5AC#32 0x00000000#32
              reduces_S5000x128_S5000 shapeCasts_S5000_S5000x1 broadcasts_S5000x1_S5000x128
              broadcasts_S1x128_S5000x128 shapeCasts_S1x128_S1x128))
          (mulf (broadcastTo S5000x128
              (subf (broadcast S5000x1 (Scalar.ofBits (F := Ideal) .f32 0x3F800000#32)) (gateCol x0 x7 x8))
              broadcasts_S5000x1_S5000x128) x0) := rfl

theorem pay_apply (x0 x1 : Vec Ideal S5000x128 .f32) (x2 x3 : Vec Ideal S128x128 .f32) (x4 x5 x6 : Vec Ideal S1x128 .f32)
    (x7 : Vec Ideal S128x1 .f32) (x8 : Vec Ideal S1x1 .f32) (p : Fin 5000) (q : Fin 128) :
    k1_pay1 (F := Ideal) x0 (k1_pay2 x0) (k1_pay3 x0 x1 x2 x3 x4 x5) x6 x7 x8 (ix2 p q)
      = gate (fun k => x0 (ix2 p k)) (fun k => x7 (ix2 k 0)) (x8 (ix2 0 0))
            * lnRelu (affine2 (fun k => x0 (ix2 p k)) (fun k => x1 (ix2 p k)) (fun k j => x2 (ix2 k j))
                (fun k j => x3 (ix2 k j)) (fun j => x4 (ix2 0 j))) (fun j => x5 (ix2 0 j)) (fun j => x6 (ix2 0 j)) q
          + (wOne - gate (fun k => x0 (ix2 p k)) (fun k => x7 (ix2 k 0)) (x8 (ix2 0 0))) * x0 (ix2 p q) := by
  rw [pay_eq, addf_apply, mulf_apply, mulf_apply, Cert.Columns.broadcastTo_a1_ab_apply _ _ p q 0,
    Cert.Columns.broadcastTo_a1_ab_apply _ _ p q 0, subf_apply, gateCol_apply,
    Cert.Lib.LayerNorm.normRows_apply]
  simp only [pre_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature, message and result windows sit at block row `t`; every other
    window at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

set_option maxHeartbeats 4000000 in
/-- What point `t` writes back is block `t` of `updFn` of the arrays as the stage finds them. -/
theorem flushed_eq (c : Dev nD) (t : Fin cfg1.N) :
    (dat1 (F := Ideal) V c).flushed 9 t
      = ((cfg1.win 9).blk t).view.read (Elt Ideal)
          (updFn (V c main_arg0) (V c main_v41) (V c main_v42) (V c main_v43) (V c main_v44) (V c main_v45)
            (V c main_v46) (V c main_arg11) (V c main_v47)) := by
  show (cfg1.win 9).cut (grid1.coords t) ((dat1 (F := Ideal) V c).after 9 t) = _
  rw [after1_9]
  unfold out1_9
  rw [View.canon_unit_zero hz]
  simp only [View.ld_unit_zero (S := S5000x128) hz, View.ld_unit_zero (S := S128x128) hz,
    View.ld_unit_zero (S := S1x128) hz, View.ld_unit_zero (S := S128x1) hz, View.ld_unit_zero (S := S1x1) hz]
  obtain ⟨a0, a1, b0, b1, c0, c1, d0, d1, e0, e1, f0, f1, g0, g1, h0', h1', i0, i1, j0, j1⟩ := idx_facts t
  have hN : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  have hp : p.val < 5000 := p.isLt
  have hq : q.val < 128 := q.isLt
  show k1_pay1 (F := Ideal) (iblk1 V c 0 t) (k1_pay2 (iblk1 V c 0 t))
      (k1_pay3 (iblk1 V c 0 t) (iblk1 V c 1 t) (iblk1 V c 2 t) (iblk1 V c 3 t) (iblk1 V c 4 t) (iblk1 V c 5 t))
      (iblk1 V c 6 t) (iblk1 V c 7 t) (iblk1 V c 8 t) (ix2 p q)
    = updFn (V c main_arg0) (V c main_v41) (V c main_v42) (V c main_v43) (V c main_v44) (V c main_v45)
        (V c main_v46) (V c main_arg11) (V c main_v47) (((cfg1.win 9).blk t).view.emb (ix2 p q))
  have hemb : ((cfg1.win 9).blk t).view.emb (ix2 p q)
      = ix2 (⟨t.val * 5000 + p.val, by omega⟩ : Fin 50000) q := by
    funext a; apply Fin.ext
    match a with
    | ⟨0, _⟩ => show win1_9.index t (0 : Fin 2) * 5000 + 1 * p.val = t.val * 5000 + p.val; omega
    | ⟨1, _⟩ => show win1_9.index t (1 : Fin 2) * 128 + 1 * q.val = q.val; omega
  have r0 : ∀ k : Fin 128, iblk1 V c 0 t (ix2 p k)
      = V c main_arg0 (ix2 (⟨t.val * 5000 + p.val, by omega⟩ : Fin 50000) k) := fun k => by
    show V c main_arg0 (((cfg1.win 0).blk t).view.emb (ix2 p k)) = _
    refine congrArg (V c main_arg0) (funext fun a => Fin.ext ?_)
    have hk : k.val < 128 := k.isLt
    match a with
    | ⟨0, _⟩ => show win1_0.index t (0 : Fin 2) * 5000 + 1 * p.val = t.val * 5000 + p.val; omega
    | ⟨1, _⟩ => show win1_0.index t (1 : Fin 2) * 128 + 1 * k.val = k.val; omega
  have r1 : ∀ k : Fin 128, iblk1 V c 1 t (ix2 p k)
      = V c main_v41 (ix2 (⟨t.val * 5000 + p.val, by omega⟩ : Fin 50000) k) := fun k => by
    show V c main_v41 (((cfg1.win 1).blk t).view.emb (ix2 p k)) = _
    refine congrArg (V c main_v41) (funext fun a => Fin.ext ?_)
    have hk : k.val < 128 := k.isLt
    match a with
    | ⟨0, _⟩ => show win1_1.index t (0 : Fin 2) * 5000 + 1 * p.val = t.val * 5000 + p.val; omega
    | ⟨1, _⟩ => show win1_1.index t (1 : Fin 2) * 128 + 1 * k.val = k.val; omega
  have r2 : ∀ (k j : Fin 128), iblk1 V c 2 t (ix2 k j) = V c main_v42 (ix2 k j) := fun k j => by
    show V c main_v42 (((cfg1.win 2).blk t).view.emb (ix2 k j)) = _
    refine congrArg (V c main_v42) (funext fun a => Fin.ext ?_)
    match a with
    | ⟨0, _⟩ => show win1_2.index t (0 : Fin 2) * 128 + 1 * k.val = k.val; omega
    | ⟨1, _⟩ => show win1_2.index t (1 : Fin 2) * 128 + 1 * j.val = j.val; omega
  have r3 : ∀ (k j : Fin 128), iblk1 V c 3 t (ix2 k j) = V c main_v43 (ix2 k j) := fun k j => by
    show V c main_v43 (((cfg1.win 3).blk t).view.emb (ix2 k j)) = _
    refine congrArg (V c main_v43) (funext fun a => Fin.ext ?_)
    match a with
    | ⟨0, _⟩ => show win1_3.index t (0 : Fin 2) * 128 + 1 * k.val = k.val; omega
    | ⟨1, _⟩ => show win1_3.index t (1 : Fin 2) * 128 + 1 * j.val = j.val; omega
  have r4 : ∀ j : Fin 128, iblk1 V c 4 t (ix2 0 j) = V c main_v44 (ix2 0 j) := fun j => by
    show V c main_v44 (((cfg1.win 4).blk t).view.emb (ix2 0 j)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  have r5 : ∀ j : Fin 128, iblk1 V c 5 t (ix2 0 j) = V c main_v45 (ix2 0 j) := fun j => by
    show V c main_v45 (((cfg1.win 5).blk t).view.emb (ix2 0 j)) = _
    refine congrArg (V c main_v45) (funext fun a => Fin.ext ?_)
    match a with
    | ⟨0, _⟩ => show win1_5.index t (0 : Fin 2) * 1 + 1 * 0 = 0; omega
    | ⟨1, _⟩ => show win1_5.index t (1 : Fin 2) * 128 + 1 * j.val = j.val; omega
  have r6 : ∀ j : Fin 128, iblk1 V c 6 t (ix2 0 j) = V c main_v46 (ix2 0 j) := fun j => by
    show V c main_v46 (((cfg1.win 6).blk t).view.emb (ix2 0 j)) = _
    refine congrArg (V c main_v46) (funext fun a => Fin.ext ?_)
    match a with
    | ⟨0, _⟩ => show win1_6.index t (0 : Fin 2) * 1 + 1 * 0 = 0; omega
    | ⟨1, _⟩ => show win1_6.index t (1 : Fin 2) * 128 + 1 * j.val = j.val; omega
  have r7 : ∀ k : Fin 128, iblk1 V c 7 t (ix2 k 0) = V c main_arg11 (ix2 k 0) := fun k => by
    show V c main_arg11 (((cfg1.win 7).blk t).view.emb (ix2 k 0)) = _
    refine congrArg (V c main_arg11) (funext fun a => Fin.ext ?_)
    match a with
    | ⟨0, _⟩ => show win1_7.index t (0 : Fin 2) * 128 + 1 * k.val = k.val; omega
    | ⟨1, _⟩ => show win1_7.index t (1 : Fin 2) * 1 + 1 * 0 = 0; omega
  have r8 : iblk1 V c 8 t (ix2 0 0) = V c main_v47 (ix2 0 0) := by
    show V c main_v47 (((cfg1.win 8).blk t).view.emb (ix2 0 0)) = _
    refine congrArg (V c main_v47) (funext fun a => Fin.ext ?_)
    match a with
    | ⟨0, _⟩ => show win1_8.index t (0 : Fin 2) * 1 + 1 * 0 = 0; omega
    | ⟨1, _⟩ => show win1_8.index t (1 : Fin 2) * 1 + 1 * 0 = 0; omega
  rw [hemb, updFn_apply]
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  simp only [r0, r1, r2, r3, r4, r5, r6, r7, r8]

/-- An index of the result is in point `t`'s block iff each coordinate is in the block's range on its axis. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v48).slice (win1_9.rect t)).set ↔ _
  rw [View.set_slice_whole, Rect.mem_set_unit]
  exact Iff.rfl

/-- Every row of the result lies in the block of the point `row / 5000`. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hlt : (i 0).val / 5000 < cfg1.N := by rw [show cfg1.N = grid1.N from rfl, N_1]; omega
  refine ⟨⟨(i 0).val / 5000, hlt⟩, flush1_9 _, ?_⟩
  obtain ⟨a0, a1, b0, b1, c0, c1, d0, d1, e0, e1, f0, f1, g0, g1, h0', h1', i0, i1, j0, j1⟩ :=
    idx_facts ⟨(i 0).val / 5000, hlt⟩
  have j0' : win1_9.index ⟨(i 0).val / 5000, hlt⟩ (0 : Fin 2) = (i 0).val / 5000 := j0
  rw [mem_blk]
  intro a
  match a with
  | ⟨0, _⟩ =>
    show win1_9.index ⟨(i 0).val / 5000, hlt⟩ (0 : Fin 2) * 5000 ≤ (i 0).val
      ∧ (i 0).val < win1_9.index ⟨(i 0).val / 5000, hlt⟩ (0 : Fin 2) * 5000 + 5000
    omega
  | ⟨1, _⟩ =>
    show win1_9.index ⟨(i 0).val / 5000, hlt⟩ (1 : Fin 2) * 128 ≤ (i 1).val
      ∧ (i 1).val < win1_9.index ⟨(i 0).val / 5000, hlt⟩ (1 : Fin 2) * 128 + 128
    omega

/-- The array the stage leaves: `updFn` of the arrays it found. -/
theorem final (c : Dev nD) :
    (dat1 (F := Ideal) V c).arrAt 9 cfg1.N
      = updFn (V c main_arg0) (V c main_v41) (V c main_v42) (V c main_v43) (V c main_v44) (V c main_v45)
          (V c main_v46) (V c main_arg11) (V c main_v47) :=
  (dat1 (F := Ideal) V c).arrAt_eq_of_cover 9
    (updFn (V c main_arg0) (V c main_v41) (V c main_v42) (V c main_v43) (V c main_v44) (V c main_v45)
      (V c main_v46) (V c main_arg11) (V c main_v47))
    (fun t _ => flushed_eq V c t) cover

end Cert.Bridge.Region1

end
-- ==== Proof.HostTerms.lean ====
/-
  The host operations around the two stages, as functions of arrays.

  `edgeFeat x ei`: for every edge, the feature rows of its source and of its destination side by side — each row of
  the edge list, with negative entries wrapped by the node count, gathers rows of `x`, and the two gathered arrays
  are joined along the lanes.  `messages em ei ew`: the per-edge results `em`, each scaled by its edge weight, summed
  into their destination nodes; divided by the nodes' in-degree counts plus a small constant, and zeroed where the
  count is not positive.  `kernelOut`: the update stage of the features and of those messages, with the parameter
  vectors as rows and the update matrix as its two halves — the whole result as one function of the thirteen
  arguments.
-/
import proofs.«113444_j71382356459943_1_alg».proof.Proof.Gen.KernelIdeal
import proofs.«113444_j71382356459943_1_alg».proof.Proof.Spec
import proofs.«113444_j71382356459943_1_alg».proof.Proof.LibRows

set_option maxRecDepth 8192

noncomputable section

namespace Cert.Bridge

open Cert.KernelIdeal Cert.KernelIdeal.Gen Idealize.ShloMosaic Idealize.ShloMosaic.TcCoe Idealize.ShloMosaic.ValueIdx Idealize.SL.Sem

variable {F : FTy → Type} [FloatOps F]

/-- The gathered source and destination rows of every edge, side by side. -/
def edgeFeat (x : (⟨S50000x128, .f32⟩ : BufTy).Contents (Elt F)) (ei : (⟨S2x800000, .i32⟩ : BufTy).Contents (Elt F)) :
    (⟨S800000x256, .f32⟩ : BufTy).Contents (Elt F) :=
  (concatenate S800000x256 1 [⟨S800000x128, (Host.gather gather_S50000x128_S800000x1_S800000x128_1_0_n_n_0_1_1128 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))⟩, ⟨S800000x128, (Host.gather gather_S50000x128_S800000x1_S800000x128_1_0_n_n_0_1_1128 x (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000))))⟩] concatenates_S800000x128_S800000x128_S800000x256_d1)

/-- The weighted per-edge results summed into their destination nodes and normalised by the in-degree. -/
def messages (em : (⟨S800000x128, .f32⟩ : BufTy).Contents (Elt F)) (ei : (⟨S2x800000, .i32⟩ : BufTy).Contents (Elt F))
    (ew : (⟨S800000, .f32⟩ : BufTy).Contents (Elt F)) : (⟨S50000x128, .f32⟩ : BufTy).Contents (Elt F) :=
  (mulf (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] ei slices_S2x800000_S1x800000_1_0) shapeCasts_S1x800000_S800000)) (mulf em (broadcastInDim S800000x128 ![0, 1] bcast_S800000x1_S800000x128_0_1 (broadcastInDim S800000x1 ![0] bcast_S800000_S800000x1_0 ew)))) (broadcastInDim S50000x128 ![0, 1] bcast_S50000x1_S50000x128_0_1 (addf (Host.scatterAdd scatter_S50000x1_S800000x1_S800000x1_1_0_0_1 (broadcastInDim S50000x1 ![] bcast_S_S50000x1 (constant S_ .f32 0x00000000#32)) (broadcastInDim S800000x1 ![0] bcast_S800000_S800000x1_0 (shapeCast _ (extractStridedSlice S1x800000 ![1, 0] ei slices_S2x800000_S1x800000_1_0) shapeCasts_S1x800000_S800000)) (broadcastInDim S800000x1 ![] bcast_S_S800000x1 (constant S_ .f32 0x3F800000#32))) (broadcastInDim S50000x1 ![] bcast_S_S50000x1 (constant S_ .f32 0x322BCC77#32))))) (broadcastInDim S50000x128 ![0, 1] bcast_S50000x1_S50000x128_0_1 (uitofp .f32 (cmpf (F := F) .ogt (Host.scatterAdd scatter_S50000x1_S800000x1_S800000x1_1_0_0_1 (broadcastInDim S50000x1 ![] bcast_S_S50000x1 (constant S_ .f32 0x00000000#32)) (broadcastInDim S800000x1 ![0] bcast_S800000_S800000x1_0 (shapeCast _ (extractStridedSlice S1x800000 ![1, 0] ei slices_S2x800000_S1x800000_1_0) shapeCasts_S1x800000_S800000)) (broadcastInDim S800000x1 ![] bcast_S_S800000x1 (constant S_ .f32 0x3F800000#32))) (broadcastInDim S50000x1 ![] bcast_S_S50000x1 (constant S_ .f32 0x00000000#32))))))

/-- A parameter vector recast as a row. -/
def rowOf (x : (⟨S128, .f32⟩ : BufTy).Contents (Elt Ideal)) : (⟨S1x128, .f32⟩ : BufTy).Contents (Elt Ideal) :=
  shapeCast S1x128 x shapeCasts_S128_S1x128

/-- The gate's constant recast as a one-by-one array. -/
def unitOf (x : (⟨S1, .f32⟩ : BufTy).Contents (Elt Ideal)) : (⟨S1x1, .f32⟩ : BufTy).Contents (Elt Ideal) :=
  shapeCast S1x1 x shapeCasts_S1_S1x1

/-- Rows 0 … 127 of the update matrix. -/
def upperHalf (x : (⟨S256x128, .f32⟩ : BufTy).Contents (Elt Ideal)) : (⟨S128x128, .f32⟩ : BufTy).Contents (Elt Ideal) :=
  extractStridedSlice S128x128 ![0, 0] x slices_S256x128_S128x128_0_0

/-- Rows 128 … 255 of the update matrix. -/
def lowerHalf (x : (⟨S256x128, .f32⟩ : BufTy).Contents (Elt Ideal)) : (⟨S128x128, .f32⟩ : BufTy).Contents (Elt Ideal) :=
  extractStridedSlice S128x128 ![128, 0] x slices_S256x128_S128x128_128_0

theorem rowOf_apply (x : (⟨S128, .f32⟩ : BufTy).Contents (Elt Ideal)) (j : Fin 128) : rowOf x (ix2 0 j) = x (ix1 j) :=
  Cert.Lib.Rows.shapeCast_vec_row_apply x shapeCasts_S128_S1x128 j

theorem unitOf_apply (x : (⟨S1, .f32⟩ : BufTy).Contents (Elt Ideal)) : unitOf x (ix2 0 0) = x (ix1 0) :=
  Cert.Lib.Rows.shapeCast_vec_row_apply x shapeCasts_S1_S1x1 0

theorem upperHalf_apply (x : (⟨S256x128, .f32⟩ : BufTy).Contents (Elt Ideal)) (k j : Fin 128) :
    upperHalf x (ix2 k j) = x (ix2 (⟨k.val, by omega⟩ : Fin 256) j) := by
  unfold upperHalf
  rw [Cert.Lib.Rows.slice_rows_apply x slices_S256x128_S128x128_0_0 k j (by omega)]
  exact congrArg (fun r : Fin 256 => x (ix2 r j)) (Fin.ext (by simp))

theorem lowerHalf_apply (x : (⟨S256x128, .f32⟩ : BufTy).Contents (Elt Ideal)) (k j : Fin 128) :
    lowerHalf x (ix2 k j) = x (ix2 (⟨128 + k.val, by omega⟩ : Fin 256) j) := by
  unfold lowerHalf
  exact Cert.Lib.Rows.slice_rows_apply x slices_S256x128_S128x128_128_0 k j (by omega)

/-- The kernel program's result as one function of its thirteen arguments, at the ideal values. -/
def kernelOut (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S256x128, .f32⟩ : BufTy).Contents (Elt Ideal))
    (x4 x5 x6 : (⟨S128, .f32⟩ : BufTy).Contents (Elt Ideal)) (x7 : (⟨S256x128, .f32⟩ : BufTy).Contents (Elt Ideal))
    (x8 x9 x10 : (⟨S128, .f32⟩ : BufTy).Contents (Elt Ideal)) (x11 : (⟨S128x1, .f32⟩ : BufTy).Contents (Elt Ideal))
    (x12 : (⟨S1, .f32⟩ : BufTy).Contents (Elt Ideal)) : (⟨S50000x128, .f32⟩ : BufTy).Contents (Elt Ideal) :=
  updFn x0
    (messages (F := Ideal)
      (msgFn (edgeFeat (F := Ideal) x0 x1) x3 (rowOf x4) (rowOf x5) (rowOf x6)) x1 x2)
    (upperHalf x7) (lowerHalf x7) (rowOf x8) (rowOf x9) (rowOf x10) x11 (unitOf x12)

end Cert.Bridge

end
-- ==== Proof.KernelValue.lean ====
/-
  The kernel program's result as one function of its arguments.

  Between the launch and the message stage the host gathers and joins the edge features and recasts three parameter
  vectors as rows; the message stage leaves `msgFn` of those; the host then weights, sums into nodes and normalises
  (`messages`), cuts the update matrix into its halves and recasts the remaining parameters; the update stage leaves
  `updFn` of those.  Reading each segment boundary's contents back to the launch memory gives the result array as
  `kernelOut` of the thirteen argument arrays.
-/
import proofs.«113444_j71382356459943_1_alg».proof.Proof.KernelRun
import proofs.«113444_j71382356459943_1_alg».proof.Proof.Region0
import proofs.«113444_j71382356459943_1_alg».proof.Proof.Region1
import proofs.«113444_j71382356459943_1_alg».proof.Proof.HostTerms

set_option maxRecDepth 16384

noncomputable section

namespace Cert.Bridge.KernelValue

open Cert.KernelIdeal Cert.KernelIdeal.Gen Cert.Bridge
open Idealize.ShloMosaic Idealize.ShloMosaic.TcCoe Idealize.ShloMosaic.StableHlo Idealize.SL.Sem

variable (m : (ℓ : Loc nD τ sig) → Buf (Elt Ideal) ℓ) (ρ : Dev nD → PrngReg)

/-! ## What the message stage finds -/

theorem entry0_v18 (c : Dev nD) : V1 m ρ c main_v18 = edgeFeat (F := Ideal) (m ((c : Thread nD τ).loc main_arg0)) (m ((c : Thread nD τ).loc main_arg1)) := by
  show StableHlo.after hostOps0 (W0 m ρ c) (Proc.devRef .tc _) = _
  dsimp only [hostOps0]
  after_results_simp
  all_goals rfl

theorem entry0_arg3 (c : Dev nD) : V1 m ρ c main_arg3 = (m ((c : Thread nD τ).loc main_arg3)) := by
  show StableHlo.after hostOps0 (W0 m ρ c) (Proc.devRef .tc _) = _
  dsimp only [hostOps0]
  after_results_simp
  all_goals rfl

theorem entry0_v19 (c : Dev nD) : V1 m ρ c main_v19 = shapeCast S1x128 (m ((c : Thread nD τ).loc main_arg4)) shapeCasts_S128_S1x128 := by
  show StableHlo.after hostOps0 (W0 m ρ c) (Proc.devRef .tc _) = _
  dsimp only [hostOps0]
  after_results_simp
  all_goals rfl

theorem entry0_v20 (c : Dev nD) : V1 m ρ c main_v20 = shapeCast S1x128 (m ((c : Thread nD τ).loc main_arg5)) shapeCasts_S128_S1x128 := by
  show StableHlo.after hostOps0 (W0 m ρ c) (Proc.devRef .tc _) = _
  dsimp only [hostOps0]
  after_results_simp
  all_goals rfl

theorem entry0_v21 (c : Dev nD) : V1 m ρ c main_v21 = shapeCast S1x128 (m ((c : Thread nD τ).loc main_arg6)) shapeCasts_S128_S1x128 := by
  show StableHlo.after hostOps0 (W0 m ρ c) (Proc.devRef .tc _) = _
  dsimp only [hostOps0]
  after_results_simp
  all_goals rfl

/-! ## What the message stage leaves, and what it does not touch -/

theorem mid_v22 (c : Dev nD) : W2 m ρ c (Proc.devRef .tc main_v22)
    = msgFn (edgeFeat (F := Ideal) (m ((c : Thread nD τ).loc main_arg0)) (m ((c : Thread nD τ).loc main_arg1))) (m ((c : Thread nD τ).loc main_arg3)) (shapeCast S1x128 (m ((c : Thread nD τ).loc main_arg4)) shapeCasts_S128_S1x128)
        (shapeCast S1x128 (m ((c : Thread nD τ).loc main_arg5)) shapeCasts_S128_S1x128) (shapeCast S1x128 (m ((c : Thread nD τ).loc main_arg6)) shapeCasts_S128_S1x128) := by
  rw [show W2 m ρ c (Proc.devRef .tc main_v22) = (dat0 (V1 m ρ) c).arrAt 5 cfg0.N from W2_arr m ρ c 5,
    Region0.final, entry0_v18, entry0_arg3, entry0_v19, entry0_v20, entry0_v21]

theorem mid_v3 (c : Dev nD) : W2 m ρ c (Proc.devRef .tc main_v3)
    = shapeCast _ (extractStridedSlice S1x800000 ![1, 0] (m ((c : Thread nD τ).loc main_arg1)) slices_S2x800000_S1x800000_1_0) shapeCasts_S1x800000_S800000 := by
  rw [W2_of_ne m ρ c main_v3 (by decide)]
  show StableHlo.after hostOps0 (W0 m ρ c) (Proc.devRef .tc _) = _
  dsimp only [hostOps0]
  after_results_simp
  all_goals rfl

theorem mid_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc _) = _
  dsimp only [hostOps0]
  after_results_simp
  all_goals rfl

theorem mid_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc _) = _
  dsimp only [hostOps0]
  after_results_simp
  all_goals rfl

theorem mid_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc _) = _
  dsimp only [hostOps0]
  after_results_simp
  all_goals rfl

theorem mid_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc _) = _
  dsimp only [hostOps0]
  after_results_simp
  all_goals rfl

theorem mid_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc _) = _
  dsimp only [hostOps0]
  after_results_simp
  all_goals rfl

theorem mid_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc _) = _
  dsimp only [hostOps0]
  after_results_simp
  all_goals rfl

theorem mid_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc _) = _
  dsimp only [hostOps0]
  after_results_simp
  all_goals rfl

theorem mid_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc _) = _
  dsimp only [hostOps0]
  after_results_simp
  all_goals rfl

/-! ## What the update stage finds -/

theorem entry1_arg0 (c : Dev nD) : V3 m ρ c main_arg0 = (m ((c : Thread nD τ).loc main_arg0)) := by
  show StableHlo.after hostOps1 (W2 m ρ c) (Proc.devRef .tc _) = _
  dsimp only [hostOps1]
  after_results_simp
  rw [mid_arg0]
  all_goals rfl

theorem entry1_arg11 (c : Dev nD) : V3 m ρ c main_arg11 = (m ((c : Thread nD τ).loc main_arg11)) := by
  show StableHlo.after hostOps1 (W2 m ρ c) (Proc.devRef .tc _) = _
  dsimp only [hostOps1]
  after_results_simp
  rw [mid_arg11]
  all_goals rfl

theorem entry1_v41 (c : Dev nD) : V3 m ρ c main_v41
    = messages (F := Ideal) (W2 m ρ c (Proc.devRef .tc main_v22)) (m ((c : Thread nD τ).loc main_arg1)) (m ((c : Thread nD τ).loc main_arg2)) := by
  show StableHlo.after hostOps1 (W2 m ρ c) (Proc.devRef .tc _) = _
  dsimp only [hostOps1]
  after_results_simp
  rw [mid_v3, mid_arg2]
  all_goals rfl

theorem entry1_v42 (c : Dev nD) : V3 m ρ c main_v42
    = extractStridedSlice S128x128 ![0, 0] (m ((c : Thread nD τ).loc main_arg7)) slices_S256x128_S128x128_0_0 := by
  show StableHlo.after hostOps1 (W2 m ρ c) (Proc.devRef .tc _) = _
  dsimp only [hostOps1]
  after_results_simp
  rw [mid_arg7]
  all_goals rfl

theorem entry1_v43 (c : Dev nD) : V3 m ρ c main_v43
    = extractStridedSlice S128x128 ![128, 0] (m ((c : Thread nD τ).loc main_arg7)) slices_S256x128_S128x128_128_0 := by
  show StableHlo.after hostOps1 (W2 m ρ c) (Proc.devRef .tc _) = _
  dsimp only [hostOps1]
  after_results_simp
  rw [mid_arg7]
  all_goals rfl

theorem entry1_v44 (c : Dev nD) : V3 m ρ c main_v44 = shapeCast S1x128 (m ((c : Thread nD τ).loc main_arg8)) shapeCasts_S128_S1x128 := by
  show StableHlo.after hostOps1 (W2 m ρ c) (Proc.devRef .tc _) = _
  dsimp only [hostOps1]
  after_results_simp
  rw [mid_arg8]
  all_goals rfl

theorem entry1_v45 (c : Dev nD) : V3 m ρ c main_v45 = shapeCast S1x128 (m ((c : Thread nD τ).loc main_arg9)) shapeCasts_S128_S1x128 := by
  show StableHlo.after hostOps1 (W2 m ρ c) (Proc.devRef .tc _) = _
  dsimp only [hostOps1]
  after_results_simp
  rw [mid_arg9]
  all_goals rfl

theorem entry1_v46 (c : Dev nD) : V3 m ρ c main_v46 = shapeCast S1x128 (m ((c : Thread nD τ).loc main_arg10)) shapeCasts_S128_S1x128 := by
  show StableHlo.after hostOps1 (W2 m ρ c) (Proc.devRef .tc _) = _
  dsimp only [hostOps1]
  after_results_simp
  rw [mid_arg10]
  all_goals rfl

theorem entry1_v47 (c : Dev nD) : V3 m ρ c main_v47 = shapeCast S1x1 (m ((c : Thread nD τ).loc main_arg12)) shapeCasts_S1_S1x1 := by
  show StableHlo.after hostOps1 (W2 m ρ c) (Proc.devRef .tc _) = _
  dsimp only [hostOps1]
  after_results_simp
  rw [mid_arg12]
  all_goals rfl

/-! ## The result -/

/-- The last boundary's contents at the result: `kernelOut` of the arguments. -/
theorem result_eq (c : Dev nD) : W4 m ρ c (Proc.devRef .tc main_v48)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W4 m ρ c (Proc.devRef .tc main_v48) = (dat1 (V3 m ρ) c).arrAt 9 cfg1.N from W4_arr m ρ c 9,
    Region1.final, entry1_arg0, entry1_v41, mid_v22, entry1_v42, entry1_v43, entry1_v44, entry1_v45, entry1_v46,
    entry1_arg11, entry1_v47]
  rfl

/-- The run: the result array at `kernelOut` of the arguments, the arguments unchanged. -/
theorem run : θ_run defs (onTc (τ := τ) (main (F := Ideal))) ⟨m, fun _ => 0, ρ⟩ (fun r => ∀ c : Dev nD,
      r.2.mem ((c.tc : Thread nD τ).loc main_v48)
        = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (KernelRun.run_value m ρ)

end Cert.Bridge.KernelValue

end
-- ==== Proof.RefMsg.lean ====
/-
  The reference's message stage, read at an index.

  For edge `e` the reference forms the row `h = a · W + b` from row `e` of the gathered edge features (kept here as
  an array, whatever the gather put there), takes the row's mean and the mean of the squared deviations as host
  sums over the 128 lanes from zero, and rescales, shifts and clamps exactly as `lnRelu` says.  So its array after
  the clamp is `msgFn` of the gathered features, the weight matrix and the three parameter vectors recast as rows.
-/
import proofs.«113444_j71382356459943_1_alg».proof.Proof.RefRead
import proofs.«113444_j71382356459943_1_alg».proof.Proof.Spec
import proofs.«113444_j71382356459943_1_alg».proof.Proof.HostTerms

set_option maxRecDepth 8192

noncomputable section

namespace Cert.Bridge.RefMsg

open Cert.ReferenceIdeal Cert.ReferenceIdeal.Gen Cert.ReferenceIdeal.ReadP Cert.Bridge
open Idealize.ShloMosaic Idealize.ShloMosaic.TcCoe Idealize.ShloMosaic.ValueIdx Idealize.SL.Sem
open scoped BigOperators

variable (x0 : (⟨S50000x128, .f32⟩ : BufTy).Contents (Elt Ideal)) (x1 : (⟨S2x800000, .i32⟩ : BufTy).Contents (Elt Ideal)) (x3 : (⟨S256x128, .f32⟩ : BufTy).Contents (Elt Ideal))
  (x4 x5 x6 : (⟨S128, .f32⟩ : BufTy).Contents (Elt Ideal))

/-- Row `e` of the block before normalisation. -/
def hrow (e : Fin 800000) : Fin 128 → EReal :=
  affine (fun k : Fin 256 => val_main_v18 (F := Ideal) x0 x1 (ix2 e k)) (fun k j => x3 (ix2 k j)) (fun j => x4 (ix1 j))

theorem v22_apply (e : Fin 800000) (j : Fin 128) :
    val_main_v22 (F := Ideal) x0 x1 x3 x4 (ix2 e j) = hrow x0 x1 x3 x4 e j := by
  rw [val_main_v22_apply, val_main_v19_apply, val_main_v21_apply, val_main_v20_apply]
  have hl : ∀ k : Fin 256, lidx_main_v19 (ix2 e j) k = ix2 e k := fun k => funext fun a => Fin.ext (by match a with | ⟨0, _⟩ => rfl | ⟨1, _⟩ => rfl)
  have hr : ∀ k : Fin 256, ridx_main_v19 (ix2 e j) k = ix2 k j := fun k => funext fun a => Fin.ext (by match a with | ⟨0, _⟩ => rfl | ⟨1, _⟩ => rfl)
  have h4 : idx_main_v20 (idx_main_v21 (ix2 e j)) = ix1 j := funext fun a => Fin.ext (by match a with | ⟨0, _⟩ => rfl)
  simp only [hl, hr, h4]
  rfl

/-- The mean column at row `e`. -/
theorem v26_apply (e : Fin 800000) (u : Fin 1) :
    val_main_v26 (F := Ideal) x0 x1 x3 x4 (ix2 e u) = rowMean (hrow x0 x1 x3 x4 e) := by
  rw [val_main_v26_apply, val_main_v24_apply, val_main_v23_apply, val_main_v25_apply]
  have hi : ∀ k : Fin 128, idx_main_v23 (idx_main_v24 (ix2 e u)) k = ix2 e k := fun k => funext fun a => Fin.ext (by match a with | ⟨0, _⟩ => rfl | ⟨1, _⟩ => rfl)
  simp only [hi, v22_apply]
  show Ideal.div (Ideal.ofBits .f32 0x00000000#32 + ∑ k : Fin 128, hrow x0 x1 x3 x4 e k) (Ideal.ofBits .f32 0x43000000#32) = _
  rw [Ideal.ofBits_zero_f32, zero_add]
  rfl

/-- A deviation at `(e, j)`. -/
theorem v28_apply (e : Fin 800000) (j : Fin 128) :
    val_main_v28 (F := Ideal) x0 x1 x3 x4 (ix2 e j) = hrow x0 x1 x3 x4 e j - rowMean (hrow x0 x1 x3 x4 e) := by
  rw [val_main_v28_apply, val_main_v27_apply, v22_apply]
  have hi : idx_main_v27 (ix2 e j) = ix2 e (0 : Fin 1) := funext fun a => Fin.ext (by match a with | ⟨0, _⟩ => rfl | ⟨1, _⟩ => rfl)
  rw [hi, v26_apply]
  rfl

theorem v35_apply (e : Fin 800000) (j : Fin 128) :
    val_main_v35 (F := Ideal) x0 x1 x3 x4 (ix2 e j) = hrow x0 x1 x3 x4 e j - rowMean (hrow x0 x1 x3 x4 e) := by
  rw [val_main_v35_apply, val_main_v34_apply, v22_apply]
  have hi : idx_main_v34 (ix2 e j) = ix2 e (0 : Fin 1) := funext fun a => Fin.ext (by match a with | ⟨0, _⟩ => rfl | ⟨1, _⟩ => rfl)
  rw [hi, v26_apply]
  rfl

/-- The variance column at row `e`. -/
theorem v33_apply (e : Fin 800000) (u : Fin 1) :
    val_main_v33 (F := Ideal) x0 x1 x3 x4 (ix2 e u) = rowVar (hrow x0 x1 x3 x4 e) := by
  rw [val_main_v33_apply, val_main_v31_apply, val_main_v30_apply, val_main_v32_apply]
  have hi : ∀ k : Fin 128, idx_main_v30 (idx_main_v31 (ix2 e u)) k = ix2 e k := fun k => funext fun a => Fin.ext (by match a with | ⟨0, _⟩ => rfl | ⟨1, _⟩ => rfl)
  simp only [hi, val_main_v29_apply, v28_apply]
  show Ideal.div (Ideal.ofBits .f32 0x00000000#32 + ∑ k : Fin 128,
      (hrow x0 x1 x3 x4 e k - rowMean (hrow x0 x1 x3 x4 e)) * (hrow x0 x1 x3 x4 e k - rowMean (hrow x0 x1 x3 x4 e)))
    (Ideal.ofBits .f32 0x43000000#32) = _
  rw [Ideal.ofBits_zero_f32, zero_add]
  rfl

/-- The clamped result at `(e, j)`. -/
theorem v47_apply (e : Fin 800000) (j : Fin 128) :
    val_main_v47 (F := Ideal) x0 x1 x3 x4 x5 x6 (ix2 e j)
      = lnRelu (hrow x0 x1 x3 x4 e) (fun j => x5 (ix1 j)) (fun j => x6 (ix1 j)) j := by
  rw [val_main_v47_apply, val_main_v46_apply, val_main_v43_apply, val_main_v40_apply, v35_apply, val_main_v39_apply,
    val_main_v38_apply, val_main_v37_apply, val_main_v36_apply, val_main_v42_apply, val_main_v41_apply,
    val_main_v45_apply, val_main_v44_apply, val_main_call0_v0_apply]
  have hi : idx_main_v39 (ix2 e j) = ix2 e (0 : Fin 1) := funext fun a => Fin.ext (by match a with | ⟨0, _⟩ => rfl | ⟨1, _⟩ => rfl)
  have h5 : idx_main_v41 (idx_main_v42 (ix2 e j)) = ix1 j := funext fun a => Fin.ext (by match a with | ⟨0, _⟩ => rfl)
  have h6 : idx_main_v44 (idx_main_v45 (ix2 e j)) = ix1 j := funext fun a => Fin.ext (by match a with | ⟨0, _⟩ => rfl)
  rw [hi, v33_apply, h5, h6]
  rfl

/-- The reference's array after the clamp is `msgFn` of the gathered features and the parameters as rows. -/
theorem v47_eq :
    val_main_v47 (F := Ideal) x0 x1 x3 x4 x5 x6
      = msgFn (val_main_v18 (F := Ideal) x0 x1) x3 (rowOf x4) (rowOf x5) (rowOf x6) := by
  funext i
  obtain ⟨e, j, rfl⟩ : ∃ (e : Fin 800000) (j : Fin 128), i = ix2 e j := ⟨i 0, i 1, eq_ix2 i⟩
  rw [v47_apply, msgFn_apply]
  simp only [rowOf_apply]
  rfl

end Cert.Bridge.RefMsg

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.RefUpd.lean ====
/-
  The reference's update stage, read at an index.

  For node `n` the reference joins row `n` of the features and row `n` of the aggregated messages (kept here as an
  array) into one row of 256 entries and sends it through the whole update matrix; a sum over 256 indices is the sum
  over the first 128 plus the sum over the last 128, so that row is the feature row through the upper half of the
  matrix plus the message row through the lower half — sums in a commutative monoid, nothing about finiteness.  The
  mean, the variance, the rescaling, the shift and the clamp are `lnRelu`'s; the gate `1 / (1 + exp (-z))` is the
  logistic function of `z` on every extended real; and the blend is `updFn`'s.
-/
import proofs.«113444_j71382356459943_1_alg».proof.Proof.RefRead
import proofs.«113444_j71382356459943_1_alg».proof.Proof.Spec
import proofs.«113444_j71382356459943_1_alg».proof.Proof.HostTerms
import proofs.«113444_j71382356459943_1_alg».proof.Proof.LibSigmoid

set_option maxRecDepth 8192

noncomputable section

namespace Cert.Bridge.RefUpd

open Cert.ReferenceIdeal Cert.ReferenceIdeal.Gen Cert.ReferenceIdeal.ReadP Cert.Bridge
open Idealize.ShloMosaic Idealize.ShloMosaic.TcCoe Idealize.ShloMosaic.ValueIdx Idealize.SL.Sem
open scoped BigOperators

variable (x0 : (⟨S50000x128, .f32⟩ : BufTy).Contents (Elt Ideal)) (x1 : (⟨S2x800000, .i32⟩ : BufTy).Contents (Elt Ideal)) (x2 : (⟨S800000, .f32⟩ : BufTy).Contents (Elt Ideal))
  (x3 : (⟨S256x128, .f32⟩ : BufTy).Contents (Elt Ideal)) (x4 x5 x6 : (⟨S128, .f32⟩ : BufTy).Contents (Elt Ideal)) (x7 : (⟨S256x128, .f32⟩ : BufTy).Contents (Elt Ideal))
  (x8 x9 x10 : (⟨S128, .f32⟩ : BufTy).Contents (Elt Ideal)) (x11 : (⟨S128x1, .f32⟩ : BufTy).Contents (Elt Ideal)) (x12 : (⟨S1, .f32⟩ : BufTy).Contents (Elt Ideal))

/-! ## The gate -/

theorem v76_apply (n : Fin 50000) (u : Fin 1) :
    val_main_v76 (F := Ideal) x0 x11 x12 (ix2 n u)
      = gate (fun k => x0 (ix2 n k)) (fun k => x11 (ix2 k 0)) (unitOf x12 (ix2 0 0)) := by
  obtain rfl : u = 0 := Subsingleton.elim u 0
  rw [val_main_v76_apply, val_main_v75_apply, val_main_v74_apply, val_main_v73_apply, val_main_v72_apply,
    val_main_v71_apply, val_main_v70_apply, val_main_v67_apply, val_main_v69_apply, val_main_v68_apply, unitOf_apply]
  have hl : ∀ k : Fin 128, lidx_main_v67 (ix2 n (0 : Fin 1)) k = ix2 n k := fun k => funext fun a => Fin.ext (by match a with | ⟨0, _⟩ => rfl | ⟨1, _⟩ => rfl)
  have hr : ∀ k : Fin 128, ridx_main_v67 (ix2 n (0 : Fin 1)) k = ix2 k (0 : Fin 1) := fun k => funext fun a => Fin.ext (by match a with | ⟨0, _⟩ => rfl | ⟨1, _⟩ => rfl)
  have hc : idx_main_v68 (idx_main_v69 (ix2 n (0 : Fin 1))) = ix1 (0 : Fin 1) := funext fun a => Fin.ext (by match a with | ⟨0, _⟩ => rfl)
  simp only [hl, hr, hc]
  show Ideal.div (Ideal.ofBits .f32 0x3F800000#32) (Ideal.ofBits .f32 0x3F800000#32
      + Ideal.exp (-((∑ k : Fin 128, x0 (ix2 n k) * x11 (ix2 k 0)) + x12 (ix1 0)))) = _
  rw [Cert.GruLib.div_one_add_exp_neg]
  rfl

/-! ## The joined row through the whole matrix -/

theorem v77_left (n : Fin 50000) (k : Fin 128) :
    val_main_v77 (F := Ideal) x0 x1 x2 x3 x4 x5 x6 (ix2 n (⟨k.val, by omega⟩ : Fin 256)) = x0 (ix2 n k) := by
  unfold val_main_v77
  exact concatenate_pair_apply_left (t := S50000x256) (s₁ := S50000x128) (s₂ := S50000x128) (1 : Fin 2) x0 _
    concatenates_S50000x128_S50000x128_S50000x256_d1 _ rfl (ix2 n k)
    (fun b => by match b with | ⟨0, _⟩ => rfl | ⟨1, _⟩ => rfl)

theorem v77_right (n : Fin 50000) (k : Fin 128) :
    val_main_v77 (F := Ideal) x0 x1 x2 x3 x4 x5 x6 (ix2 n (⟨128 + k.val, by omega⟩ : Fin 256))
      = val_main_v66 (F := Ideal) x0 x1 x2 x3 x4 x5 x6 (ix2 n k) := by
  unfold val_main_v77
  exact concatenate_pair_apply_right (t := S50000x256) (s₁ := S50000x128) (s₂ := S50000x128) (1 : Fin 2) x0 _
    concatenates_S50000x128_S50000x128_S50000x256_d1 _ rfl rfl (ix2 n k) (fun b hb => by match b, hb with | ⟨0, _⟩, _ => rfl | ⟨1, _⟩, hb => exact absurd rfl hb)
    (by show k.val + 128 = 128 + k.val; omega)

/-- A sum over 256 indices is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- Row `n` of the block before normalisation. -/
def hrow (n : Fin 50000) : Fin 128 → EReal :=
  affine2 (fun k => x0 (ix2 n k)) (fun k => val_main_v66 (F := Ideal) x0 x1 x2 x3 x4 x5 x6 (ix2 n k))
    (fun k j => upperHalf x7 (ix2 k j)) (fun k j => lowerHalf x7 (ix2 k j)) (fun j => rowOf x8 (ix2 0 j))

theorem v81_apply (n : Fin 50000) (j : Fin 128) :
    val_main_v81 (F := Ideal) x0 x1 x2 x3 x4 x5 x6 x7 x8 (ix2 n j) = hrow x0 x1 x2 x3 x4 x5 x6 x7 x8 n j := by
  rw [val_main_v81_apply, val_main_v78_apply, val_main_v80_apply, val_main_v79_apply, sum_halves]
  have hl : ∀ k : Fin 256, lidx_main_v78 (ix2 n j) k = ix2 n k := fun k => funext fun a => Fin.ext (by match a with | ⟨0, _⟩ => rfl | ⟨1, _⟩ => rfl)
  have hr : ∀ k : Fin 256, ridx_main_v78 (ix2 n j) k = ix2 k j := fun k => funext fun a => Fin.ext (by match a with | ⟨0, _⟩ => rfl | ⟨1, _⟩ => rfl)
  have h8 : idx_main_v79 (idx_main_v80 (ix2 n j)) = ix1 j := funext fun a => Fin.ext (by match a with | ⟨0, _⟩ => rfl)
  simp only [hl, hr, h8, v77_left, v77_right]
  unfold hrow affine2
  simp only [upperHalf_apply, lowerHalf_apply, rowOf_apply]
  rfl

/-! ## The normalisation chain -/

theorem v85_apply (n : Fin 50000) (u : Fin 1) :
    val_main_v85 (F := Ideal) x0 x1 x2 x3 x4 x5 x6 x7 x8 (ix2 n u) = rowMean (hrow x0 x1 x2 x3 x4 x5 x6 x7 x8 n) := by
  rw [val_main_v85_apply, val_main_v83_apply, val_main_v82_apply, val_main_v84_apply]
  have hi : ∀ k : Fin 128, idx_main_v82 (idx_main_v83 (ix2 n u)) k = ix2 n k := fun k => funext fun a => Fin.ext (by match a with | ⟨0, _⟩ => rfl | ⟨1, _⟩ => rfl)
  simp only [hi, v81_apply]
  show Ideal.div (Ideal.ofBits .f32 0x00000000#32 + ∑ k : Fin 128, hrow x0 x1 x2 x3 x4 x5 x6 x7 x8 n k) (Ideal.ofBits .f32 0x43000000#32) = _
  rw [Ideal.ofBits_zero_f32, zero_add]
  rfl

theorem v87_apply (n : Fin 50000) (j : Fin 128) :
    val_main_v87 (F := Ideal) x0 x1 x2 x3 x4 x5 x6 x7 x8 (ix2 n j) = hrow x0 x1 x2 x3 x4 x5 x6 x7 x8 n j - rowMean (hrow x0 x1 x2 x3 x4 x5 x6 x7 x8 n) := by
  rw [val_main_v87_apply, val_main_v86_apply, v81_apply]
  have hi : idx_main_v86 (ix2 n j) = ix2 n (0 : Fin 1) := funext fun a => Fin.ext (by match a with | ⟨0, _⟩ => rfl | ⟨1, _⟩ => rfl)
  rw [hi, v85_apply]
  rfl

theorem v94_apply (n : Fin 50000) (j : Fin 128) :
    val_main_v94 (F := Ideal) x0 x1 x2 x3 x4 x5 x6 x7 x8 (ix2 n j) = hrow x0 x1 x2 x3 x4 x5 x6 x7 x8 n j - rowMean (hrow x0 x1 x2 x3 x4 x5 x6 x7 x8 n) := by
  rw [val_main_v94_apply, val_main_v93_apply, v81_apply]
  have hi : idx_main_v93 (ix2 n j) = ix2 n (0 : Fin 1) := funext fun a => Fin.ext (by match a with | ⟨0, _⟩ => rfl | ⟨1, _⟩ => rfl)
  rw [hi, v85_apply]
  rfl

theorem v92_apply (n : Fin 50000) (u : Fin 1) :
    val_main_v92 (F := Ideal) x0 x1 x2 x3 x4 x5 x6 x7 x8 (ix2 n u) = rowVar (hrow x0 x1 x2 x3 x4 x5 x6 x7 x8 n) := by
  rw [val_main_v92_apply, val_main_v90_apply, val_main_v89_apply, val_main_v91_apply]
  have hi : ∀ k : Fin 128, idx_main_v89 (idx_main_v90 (ix2 n u)) k = ix2 n k := fun k => funext fun a => Fin.ext (by match a with | ⟨0, _⟩ => rfl | ⟨1, _⟩ => rfl)
  simp only [hi, val_main_v88_apply, v87_apply]
  show Ideal.div (Ideal.ofBits .f32 0x00000000#32 + ∑ k : Fin 128,
      (hrow x0 x1 x2 x3 x4 x5 x6 x7 x8 n k - rowMean (hrow x0 x1 x2 x3 x4 x5 x6 x7 x8 n)) * (hrow x0 x1 x2 x3 x4 x5 x6 x7 x8 n k - rowMean (hrow x0 x1 x2 x3 x4 x5 x6 x7 x8 n))) (Ideal.ofBits .f32 0x43000000#32) = _
  rw [Ideal.ofBits_zero_f32, zero_add]
  rfl

theorem v106_apply (n : Fin 50000) (j : Fin 128) :
    val_main_v106 (F := Ideal) x0 x1 x2 x3 x4 x5 x6 x7 x8 x9 x10 (ix2 n j)
      = lnRelu (hrow x0 x1 x2 x3 x4 x5 x6 x7 x8 n) (fun j => rowOf x9 (ix2 0 j)) (fun j => rowOf x10 (ix2 0 j)) j := by
  rw [val_main_v106_apply, val_main_v105_apply, val_main_v102_apply, val_main_v99_apply, v94_apply, val_main_v98_apply,
    val_main_v97_apply, val_main_v96_apply, val_main_v95_apply, val_main_v101_apply, val_main_v100_apply,
    val_main_v104_apply, val_main_v103_apply, val_main_call1_v0_apply]
  have hi : idx_main_v98 (ix2 n j) = ix2 n (0 : Fin 1) := funext fun a => Fin.ext (by match a with | ⟨0, _⟩ => rfl | ⟨1, _⟩ => rfl)
  have h9 : idx_main_v100 (idx_main_v101 (ix2 n j)) = ix1 j := funext fun a => Fin.ext (by match a with | ⟨0, _⟩ => rfl)
  have h10 : idx_main_v103 (idx_main_v104 (ix2 n j)) = ix1 j := funext fun a => Fin.ext (by match a with | ⟨0, _⟩ => rfl)
  rw [hi, v92_apply, h9, h10]
  simp only [rowOf_apply]
  rfl

/-! ## The blend -/

theorem v113_apply (n : Fin 50000) (j : Fin 128) :
    val_main_v113 (F := Ideal) x0 x1 x2 x3 x4 x5 x6 x7 x8 x9 x10 x11 x12 (ix2 n j)
      = gate (fun k => x0 (ix2 n k)) (fun k => x11 (ix2 k 0)) (unitOf x12 (ix2 0 0))
            * lnRelu (hrow x0 x1 x2 x3 x4 x5 x6 x7 x8 n) (fun j => rowOf x9 (ix2 0 j)) (fun j => rowOf x10 (ix2 0 j)) j
          + (wOne - gate (fun k => x0 (ix2 n k)) (fun k => x11 (ix2 k 0)) (unitOf x12 (ix2 0 0))) * x0 (ix2 n j) := by
  rw [val_main_v113_apply, val_main_v108_apply, val_main_v107_apply, v106_apply, val_main_v112_apply,
    val_main_v111_apply, val_main_v110_apply, val_main_v109_apply]
  have h7 : idx_main_v107 (ix2 n j) = ix2 n (0 : Fin 1) := funext fun a => Fin.ext (by match a with | ⟨0, _⟩ => rfl | ⟨1, _⟩ => rfl)
  have h11 : idx_main_v111 (ix2 n j) = ix2 n (0 : Fin 1) := funext fun a => Fin.ext (by match a with | ⟨0, _⟩ => rfl | ⟨1, _⟩ => rfl)
  rw [h7, h11, v76_apply]
  rfl

/-- The reference's result is `updFn` of the features, its own aggregated messages, the two halves of the update
    matrix, the parameters as rows, the gate's column and its constant. -/
theorem v113_eq :
    val_main_v113 (F := Ideal) x0 x1 x2 x3 x4 x5 x6 x7 x8 x9 x10 x11 x12
      = updFn x0 (val_main_v66 (F := Ideal) x0 x1 x2 x3 x4 x5 x6) (upperHalf x7) (lowerHalf x7) (rowOf x8) (rowOf x9) (rowOf x10)
          x11 (unitOf x12) := by
  funext i
  obtain ⟨n, j, rfl⟩ : ∃ (n : Fin 50000) (j : Fin 128), i = ix2 n j := ⟨i 0, i 1, eq_ix2 i⟩
  rw [v113_apply, updFn_apply]
  rfl

end Cert.Bridge.RefUpd

end
-- ==== Proof.Bridge.lean ====
/-
  The two programs compute one function of the arguments.

  The reference's gathered edge features and its weighting-summing-normalising of the per-edge results are, operation
  for operation, the kernel program's host operations around its two stages, so they are `edgeFeat` and `messages` by
  unfolding.  With the reference's message stage equal to `msgFn` and its update stage equal to `updFn`, its result is
  `kernelOut` of the thirteen arguments.
-/
import proofs.«113444_j71382356459943_1_alg».proof.Proof.RefMsg
import proofs.«113444_j71382356459943_1_alg».proof.Proof.RefUpd

set_option maxRecDepth 8192

noncomputable section

namespace Cert.Bridge

open Cert.ReferenceIdeal Cert.ReferenceIdeal.Gen Cert.ReferenceIdeal.ReadP
open Idealize.ShloMosaic Idealize.ShloMosaic.TcCoe Idealize.SL.Sem

variable (x0 : (⟨S50000x128, .f32⟩ : BufTy).Contents (Elt Ideal)) (x1 : (⟨S2x800000, .i32⟩ : BufTy).Contents (Elt Ideal)) (x2 : (⟨S800000, .f32⟩ : BufTy).Contents (Elt Ideal))
  (x3 : (⟨S256x128, .f32⟩ : BufTy).Contents (Elt Ideal)) (x4 x5 x6 : (⟨S128, .f32⟩ : BufTy).Contents (Elt Ideal)) (x7 : (⟨S256x128, .f32⟩ : BufTy).Contents (Elt Ideal))
  (x8 x9 x10 : (⟨S128, .f32⟩ : BufTy).Contents (Elt Ideal)) (x11 : (⟨S128x1, .f32⟩ : BufTy).Contents (Elt Ideal)) (x12 : (⟨S1, .f32⟩ : BufTy).Contents (Elt Ideal))

/-- The reference's gathered edge features are the kernel program's. -/
theorem ref_edgeFeat : val_main_v18 (F := Ideal) x0 x1 = edgeFeat (F := Ideal) x0 x1 := rfl

/-- The reference's aggregated messages are the kernel program's host operations applied to its own per-edge results. -/
theorem ref_messages :
    val_main_v66 (F := Ideal) x0 x1 x2 x3 x4 x5 x6 = messages (F := Ideal) (val_main_v47 (F := Ideal) x0 x1 x3 x4 x5 x6) x1 x2 := rfl

/-- The reference's result is `kernelOut` of the arguments. -/
theorem ref_result : val_main_v113 (F := Ideal) x0 x1 x2 x3 x4 x5 x6 x7 x8 x9 x10 x11 x12 = kernelOut x0 x1 x2 x3 x4 x5 x6 x7 x8 x9 x10 x11 x12 := by
  rw [RefUpd.v113_eq, ref_messages, RefMsg.v47_eq, ref_edgeFeat]
  rfl

end Cert.Bridge

end
-- ==== Proof.lean ====
/-
  The kernel gathers the two endpoint rows of every edge on the host, runs the message stage (a matrix product, a bias,
  a lane-wise normalisation, a clamp) over 100 blocks of 8000 edges, weights and sums the results into nodes and
  normalises by the in-degree on the host, and runs the update stage (two matrix products, the same normalisation and
  clamp, a logistic gate and a blend with the input) over 10 blocks of 5000 nodes.  The reference does all of it on
  the host, with the update's two products as one product of the joined rows.

  At the ideal values both results are `kernelOut` of the thirteen arguments: each stage's array is one function of
  whole arrays read index by index (Region0, Region1), the host operations between the stages are the same on both
  sides (HostTerms, Bridge), the reference's stages read at an index are those functions (RefMsg, RefUpd) — the one
  law used is that a sum over 256 indices is the sum of its two halves, which holds in any commutative monoid, so
  the precondition is never opened.  The idealization pass rewrote nothing, so `preserves` is trivial; the frames are
  the generated ones, the reference's being its run with the result dropped.
-/
import proofs.«113444_j71382356459943_1_alg».proof.Defs
import proofs.«113444_j71382356459943_1_alg».proof.Proof.Gen.Kernel
import proofs.«113444_j71382356459943_1_alg».proof.Proof.Gen.Kernel.Frame
import proofs.«113444_j71382356459943_1_alg».proof.Proof.Gen.KernelIdeal
import proofs.«113444_j71382356459943_1_alg».proof.Proof.Gen.KernelIdeal.Frame
import proofs.«113444_j71382356459943_1_alg».proof.Proof.Gen.ReferenceIdeal
import proofs.«113444_j71382356459943_1_alg».proof.Proof.Gen.Pre_finite_inputs
import proofs.«113444_j71382356459943_1_alg».proof.Proof.KernelValue
import proofs.«113444_j71382356459943_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `kernelOut` of the arguments, which agree. -/
theorem algebraic : Cert.algebraic_KernelIdeal_ReferenceIdeal := by
  intro m ρ m' ρ' _ hagree
  refine ⟨fun c => Cert.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.Bridge.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v113_eq, h0, h1, h2, h3, h4, h5, h6, h7, h8, h9, h10, h11, h12]
  exact Cert.Bridge.ref_result _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
